-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x9000 : Shape := ⟨2, ![4096, 9000]⟩
abbrev S200000x2 : Shape := ⟨2, ![200000, 2]⟩
abbrev S200000 : Shape := ⟨1, ![200000]⟩
abbrev S2048 : Shape := ⟨1, ![2048]⟩
abbrev S_ : Shape := ⟨0, ![]⟩
abbrev S200000x1 : Shape := ⟨2, ![200000, 1]⟩

class Facts : Prop where
  bcast_S_S4096x9000 : S_.BroadcastsInDim S4096x9000 (![] : Fin 0 → Fin S4096x9000.rank)
  reducesTo_S4096x9000_S_d0_1 : S4096x9000.ReducesTo [0, 1] S_
  h_S_ : 0 < S_.numel
  bcast_S_S200000 : S_.BroadcastsInDim S200000 (![] : Fin 0 → Fin S200000.rank)
  reducesTo_S200000_S_d0 : S200000.ReducesTo [0] S_
  bcast_S_S2048 : S_.BroadcastsInDim S2048 (![] : Fin 0 → Fin S2048.rank)
  reducesTo_S2048_S_d0 : S2048.ReducesTo [0] S_
  slices_S200000x2_S200000x1_0_0 : S200000x2.Slices ![0, 0] S200000x1
  shapeCasts_S200000x1_S200000 : S200000x1.ShapeCasts S200000

variable [Facts]

def fn_part1 {F : FTy → Type} [FloatOps F] (main_v13 : IVec S_ 1) (main_v15 : IVec S200000 32) (main_v16 : IVec S200000 32) : IVec S_ 1 :=
  let main_v17 : IVec S200000 1 := cmpi .sge main_v15 main_v16
  let main_c_5 : IVec S_ 1 := constantI S_ 1 1#1
  let main_v18 : IVec S_ 1 := (fun x v => Host.reduce IntOp.andi x v reducesTo_S200000_S_d0 h_S_) main_v17 main_c_5
  let main_v19 : IVec S_ 1 := andi main_v13 main_v18
  main_v19

def fn {F : FTy → Type} [FloatOps F] (main_arg0 : FVec F S4096x9000 .f32) (main_arg1 : IVec S200000x2 32) (main_arg2 : FVec F S200000 .f32) (main_arg3 : FVec F S2048 .f32) : IVec S_ 1 :=
  let main_v0 : FVec F S4096x9000 .f32 := Host.absf main_arg0
  let main_cst : FVec F S_ .f32 := constant S_ .f32 0x7F800000#32
  let main_v1 : FVec F S4096x9000 .f32 := broadcastInDim S4096x9000 ![] bcast_S_S4096x9000 main_cst
  let main_v2 : IVec S4096x9000 1 := cmpf .olt main_v0 main_v1
  let main_c : IVec S_ 1 := constantI S_ 1 1#1
  let main_v3 : IVec S_ 1 := (fun x v => Host.reduce IntOp.andi x v reducesTo_S4096x9000_S_d0_1 h_S_) main_v2 main_c
  let main_v4 : FVec F S200000 .f32 := Host.absf main_arg2
  let main_cst_0 : FVec F S_ .f32 := constant S_ .f32 0x7F800000#32
  let main_v5 : FVec F S200000 .f32 := broadcastInDim S200000 ![] bcast_S_S200000 main_cst_0
  let main_v6 : IVec S200000 1 := cmpf .olt main_v4 main_v5
  let main_c_1 : IVec S_ 1 := constantI S_ 1 1#1
  let main_v7 : IVec S_ 1 := (fun x v => Host.reduce IntOp.andi x v reducesTo_S200000_S_d0 h_S_) main_v6 main_c_1
  let main_v8 : IVec S_ 1 := andi main_v3 main_v7
  let main_v9 : FVec F S2048 .f32 := Host.absf main_arg3
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : IVec S200000x1 32 := (extractStridedSlice S200000x1 ![0, 0] · slices_S200000x2_S200000x1_0_0) main_arg1
  let main_v15 : IVec S200000 32 := shapeCast S200000 main_v14 shapeCasts_S200000x1_S200000
  let main_c_4 : IVec S_ 32 := constantI S_ 32 0#32
  let main_v16 : IVec S200000 32 := broadcastInDim S200000 ![] bcast_S_S200000 main_c_4
  fn_part1 (F := F) main_v13 main_v15 main_v16
-- ==== Kernel.lean ====
abbrev S4096x9000 : Shape := ⟨2, ![4096, 9000]⟩
abbrev S200000x2 : Shape := ⟨2, ![200000, 2]⟩
abbrev S200000 : Shape := ⟨1, ![200000]⟩
abbrev S2048 : Shape := ⟨1, ![2048]⟩
abbrev S200000x1 : Shape := ⟨2, ![200000, 1]⟩
abbrev S_ : Shape := ⟨0, ![]⟩
abbrev S9216x2048 : Shape := ⟨2, ![9216, 2048]⟩
abbrev S4096x9216 : Shape := ⟨2, ![4096, 9216]⟩
abbrev S1x2048 : Shape := ⟨2, ![1, 2048]⟩
abbrev S4096x2048 : Shape := ⟨2, ![4096, 2048]⟩
abbrev S512x2304 : Shape := ⟨2, ![512, 2304]⟩
abbrev S2304x2048 : Shape := ⟨2, ![2304, 2048]⟩
abbrev S512x2048 : Shape := ⟨2, ![512, 2048]⟩

abbrev nBuf : Space → Nat
  | .hbm => 35
  | .vmem => 8
  | .smem => 0
  | _ => 0

abbrev bufTy : (tb : Table) → Fin (tcTables nBuf tb) → BufTy
  | .hbm, ⟨0, _⟩ => ⟨S4096x9000, .f32⟩
  | .hbm, ⟨1, _⟩ => ⟨S200000x2, .i32⟩
  | .hbm, ⟨2, _⟩ => ⟨S200000, .f32⟩
  | .hbm, ⟨3, _⟩ => ⟨S2048, .f32⟩
  | .hbm, ⟨4, _⟩ => ⟨S200000x1, .i32⟩
  | .hbm, ⟨5, _⟩ => ⟨S200000, .i32⟩
  | .hbm, ⟨6, _⟩ => ⟨S200000x1, .i32⟩
  | .hbm, ⟨7, _⟩ => ⟨S200000, .i32⟩
  | .hbm, ⟨8, _⟩ => ⟨S_, .f32⟩
  | .hbm, ⟨9, _⟩ => ⟨S9216x2048, .f32⟩
  | .hbm, ⟨10, _⟩ => ⟨S_, .i32⟩
  | .hbm, ⟨11, _⟩ => ⟨S200000, .i32⟩
  | .hbm, ⟨12, _⟩ => ⟨S200000, .i1⟩
  | .hbm, ⟨13, _⟩ => ⟨S_, .i32⟩
  | .hbm, ⟨14, _⟩ => ⟨S200000, .i32⟩
  | .hbm, ⟨15, _⟩ => ⟨S200000, .i32⟩
  | .hbm, ⟨16, _⟩ => ⟨S200000, .i32⟩
  | .hbm, ⟨17, _⟩ => ⟨S_, .i32⟩
  | .hbm, ⟨18, _⟩ => ⟨S200000, .i32⟩
  | .hbm, ⟨19, _⟩ => ⟨S200000, .i1⟩
  | .hbm, ⟨20, _⟩ => ⟨S_, .i32⟩
  | .hbm, ⟨21, _⟩ => ⟨S200000, .i32⟩
  | .hbm, ⟨22, _⟩ => ⟨S200000, .i32⟩
  | .hbm, ⟨23, _⟩ => ⟨S200000, .i32⟩
  | .hbm, ⟨24, _⟩ => ⟨S200000x1, .i32⟩
  | .hbm, ⟨25, _⟩ => ⟨S200000x1, .i32⟩
  | .hbm, ⟨26, _⟩ => ⟨S200000x2, .i32⟩
  | .hbm, ⟨27, _⟩ => ⟨S9216x2048, .f32⟩
  | .hbm, ⟨28, _⟩ => ⟨S9216x2048, .bf16⟩
  | .hbm, ⟨29, _⟩ => ⟨S4096x9000, .bf16⟩
  | .hbm, ⟨30, _⟩ => ⟨S_, .i32⟩
  | .hbm, ⟨31, _⟩ => ⟨S_, .bf16⟩
  | .hbm, ⟨32, _⟩ => ⟨S4096x9216, .bf16⟩
  | .hbm, ⟨33, _⟩ => ⟨S1x2048, .f32⟩
  | .hbm, ⟨34, _⟩ => ⟨S4096x2048, .f32⟩
  | .local _ .vmem, ⟨0, _⟩ => ⟨S512x2304, .bf16⟩
  | .local _ .vmem, ⟨1, _⟩ => ⟨S512x2304, .bf16⟩
  | .local _ .vmem, ⟨2, _⟩ => ⟨S2304x2048, .bf16⟩
  | .local _ .vmem, ⟨3, _⟩ => ⟨S2304x2048, .bf16⟩
  | .local _ .vmem, ⟨4, _⟩ => ⟨S1x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | _, _ => ⟨S4096x9000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_c_3 : Ref sig .tc := ⟨.hbm, 30, rfl⟩
abbrev main_call0_v0 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2304 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2304x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  slices_S200000x2_S200000x1_0_0 : S200000x2.Slices ![0, 0] S200000x1
  shapeCasts_S200000x1_S200000 : S200000x1.ShapeCasts S200000
  slices_S200000x2_S200000x1_0_1 : S200000x2.Slices ![0, 1] S200000x1
  bcast_S_S9216x2048 : S_.BroadcastsInDim S9216x2048 (![] : Fin 0 → Fin S9216x2048.rank)
  bcast_S_S200000 : S_.BroadcastsInDim S200000 (![] : Fin 0 → Fin S200000.rank)
  bcast_S200000_S200000x1_0 : S200000.BroadcastsInDim S200000x1 (![0] : Fin 1 → Fin S200000x1.rank)
  concatenates_S200000x1_S200000x1_S200000x2_d1 : Shape.Concatenates [S200000x1, S200000x1] S200000x2 1
  bitsLt_bf16_f32 : FTy.bits .bf16 < FTy.bits .f32
  pads_S4096x9000_S4096x9216_000_02160 : S4096x9000.Pads (![0, 0] : Fin 2 → Nat) ![0, 216] ![0, 0] S4096x9216
  h_S_ : 0 < S_.numel
  shapeCasts_S2048_S1x2048 : S2048.ShapeCasts S1x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S512x2304_S512x2304_0_0 : ∀ a, (![0, 0] : Fin 2 → Nat) a + S512x2304.size a ≤ S512x2304.size a
  h_S512x2304 : 0 < S512x2304.numel
  shapeCasts_S512x2304_S512x2304 : S512x2304.ShapeCasts S512x2304
  inb_S2304x2048_S2304x2048_0_0 : ∀ a, (![0, 0] : Fin 2 → Nat) a + S2304x2048.size a ≤ S2304x2048.size a
  h_S2304x2048 : 0 < S2304x2048.numel
  shapeCasts_S2304x2048_S2304x2048 : S2304x2048.ShapeCasts S2304x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  scatter_S9216x2048_S200000x2_S200000_n_01_01_1_wf : ScatterDims.WF S9216x2048 S200000x2 S200000 [] [0, 1] [0, 1] 1
  dot_S512x2304_S2304x2048_S512x2048_1_0_0_1_n_n_wf : DotDims.WF S512x2304 S2304x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2304.size a ≤ S4096x9216.size a
  hwx0_0 : ∀ i : grid0.Coords, EltTy.bits .bf16 = 32 ∨ (Rect.block (s := S4096x9216) S512x2304.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2304x2048.size a ≤ S9216x2048.size a
  hwx0_1 : ∀ i : grid0.Coords, EltTy.bits .bf16 = 32 ∨ (Rect.block (s := S9216x2048) S2304x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S4096x2048.size a
  hwx0_3 : ∀ i : grid0.Coords, EltTy.bits .f32 = 32 ∨ (Rect.block (s := S4096x2048) S512x2048.size (cc0_transform_3 i) (hinb0_3 i)).WholeWords (EltTy.packing .f32)

variable [Facts₀]

def scatter_S9216x2048_S200000x2_S200000_n_01_01_1 : ScatterDims S9216x2048 S200000x2 S200000 where
  updateWindowDims := []
  insertedWindowDims := [0, 1]
  scatterDimsToOperandDims := [0, 1]
  indexVectorDim := 1
  wf := scatter_S9216x2048_S200000x2_S200000_n_01_01_1_wf
def dot_S512x2304_S2304x2048_S512x2048_1_0_0_1_n_n : DotDims S512x2304 S2304x2048 S512x2048 where
  lhsContracting := [1]
  rhsContracting := [0]
  lhsNonContracting := [0]
  rhsNonContracting := [1]
  lhsBatch := []
  rhsBatch := []
  wf := dot_S512x2304_S2304x2048_S512x2048_1_0_0_1_n_n_wf

abbrev win0_0 : Pipeline.Window sig grid0 :=
  Pipeline.Window.ofSpec (Memref.whole main_v21) S512x2304.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S2304x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4096x9000 : Shape := ⟨2, ![4096, 9000]⟩
abbrev S200000x2 : Shape := ⟨2, ![200000, 2]⟩
abbrev S200000 : Shape := ⟨1, ![200000]⟩
abbrev S2048 : Shape := ⟨1, ![2048]⟩
abbrev S_ : Shape := ⟨0, ![]⟩
abbrev S9000x2048 : Shape := ⟨2, ![9000, 2048]⟩
abbrev S200000x1 : Shape := ⟨2, ![200000, 1]⟩
abbrev S4096x2048 : Shape := ⟨2, ![4096, 2048]⟩
abbrev S1x2048 : Shape := ⟨2, ![1, 2048]⟩

abbrev nBuf : Space → Nat
  | .hbm => 32
  | .vmem => 0
  | .smem => 0
  | _ => 0

abbrev bufTy : (tb : Table) → Fin (tcTables nBuf tb) → BufTy
  | .hbm, ⟨0, _⟩ => ⟨S4096x9000, .f32⟩
  | .hbm, ⟨1, _⟩ => ⟨S200000x2, .i32⟩
  | .hbm, ⟨2, _⟩ => ⟨S200000, .f32⟩
  | .hbm, ⟨3, _⟩ => ⟨S2048, .f32⟩
  | .hbm, ⟨4, _⟩ => ⟨S_, .f32⟩
  | .hbm, ⟨5, _⟩ => ⟨S9000x2048, .f32⟩
  | .hbm, ⟨6, _⟩ => ⟨S200000x1, .i32⟩
  | .hbm, ⟨7, _⟩ => ⟨S200000, .i32⟩
  | .hbm, ⟨8, _⟩ => ⟨S200000x1, .i32⟩
  | .hbm, ⟨9, _⟩ => ⟨S200000, .i32⟩
  | .hbm, ⟨10, _⟩ => ⟨S_, .i32⟩
  | .hbm, ⟨11, _⟩ => ⟨S200000, .i32⟩
  | .hbm, ⟨12, _⟩ => ⟨S200000, .i1⟩
  | .hbm, ⟨13, _⟩ => ⟨S_, .i32⟩
  | .hbm, ⟨14, _⟩ => ⟨S200000, .i32⟩
  | .hbm, ⟨15, _⟩ => ⟨S200000, .i32⟩
  | .hbm, ⟨16, _⟩ => ⟨S200000, .i32⟩
  | .hbm, ⟨17, _⟩ => ⟨S_, .i32⟩
  | .hbm, ⟨18, _⟩ => ⟨S200000, .i32⟩
  | .hbm, ⟨19, _⟩ => ⟨S200000, .i1⟩
  | .hbm, ⟨20, _⟩ => ⟨S_, .i32⟩
  | .hbm, ⟨21, _⟩ => ⟨S200000, .i32⟩
  | .hbm, ⟨22, _⟩ => ⟨S200000, .i32⟩
  | .hbm, ⟨23, _⟩ => ⟨S200000, .i32⟩
  | .hbm, ⟨24, _⟩ => ⟨S200000x1, .i32⟩
  | .hbm, ⟨25, _⟩ => ⟨S200000x1, .i32⟩
  | .hbm, ⟨26, _⟩ => ⟨S200000x2, .i32⟩
  | .hbm, ⟨27, _⟩ => ⟨S9000x2048, .f32⟩
  | .hbm, ⟨28, _⟩ => ⟨S4096x2048, .f32⟩
  | .hbm, ⟨29, _⟩ => ⟨S1x2048, .f32⟩
  | .hbm, ⟨30, _⟩ => ⟨S4096x2048, .f32⟩
  | .hbm, ⟨31, _⟩ => ⟨S4096x2048, .f32⟩
  | _, _ => ⟨S4096x9000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]

class Facts₀ : Prop where
  bcast_S_S9000x2048 : S_.BroadcastsInDim S9000x2048 (![] : Fin 0 → Fin S9000x2048.rank)
  slices_S200000x2_S200000x1_0_0 : S200000x2.Slices ![0, 0] S200000x1
  shapeCasts_S200000x1_S200000 : S200000x1.ShapeCasts S200000
  slices_S200000x2_S200000x1_0_1 : S200000x2.Slices ![0, 1] S200000x1
  bcast_S_S200000 : S_.BroadcastsInDim S200000 (![] : Fin 0 → Fin S200000.rank)
  bcast_S200000_S200000x1_0 : S200000.BroadcastsInDim S200000x1 (![0] : Fin 1 → Fin S200000x1.rank)
  concatenates_S200000x1_S200000x1_S200000x2_d1 : Shape.Concatenates [S200000x1, S200000x1] S200000x2 1
  bcast_S2048_S1x2048_1 : S2048.BroadcastsInDim S1x2048 (![1] : Fin 1 → Fin S1x2048.rank)
  bcast_S1x2048_S4096x2048_0_1 : S1x2048.BroadcastsInDim S4096x2048 (![0, 1] : Fin 2 → Fin S4096x2048.rank)
  scatter_S9000x2048_S200000x2_S200000_n_01_01_1_wf : ScatterDims.WF S9000x2048 S200000x2 S200000 [] [0, 1] [0, 1] 1
  dot_S4096x9000_S9000x2048_S4096x2048_1_0_0_1_n_n_wf : DotDims.WF S4096x9000 S9000x2048 S4096x2048 [1] [0] [0] [1] [] []

variable [Facts₀]

def scatter_S9000x2048_S200000x2_S200000_n_01_01_1 : ScatterDims S9000x2048 S200000x2 S200000 where
  updateWindowDims := []
  insertedWindowDims := [0, 1]
  scatterDimsToOperandDims := [0, 1]
  indexVectorDim := 1
  wf := scatter_S9000x2048_S200000x2_S200000_n_01_01_1_wf
def dot_S4096x9000_S9000x2048_S4096x2048_1_0_0_1_n_n : DotDims S4096x9000 S9000x2048 S4096x2048 where
  lhsContracting := [1]
  rhsContracting := [0]
  lhsNonContracting := [0]
  rhsNonContracting := [1]
  lhsBatch := []
  rhsBatch := []
  wf := dot_S4096x9000_S9000x2048_S4096x2048_1_0_0_1_n_n_wf

class Facts : Prop extends Facts₀ where

variable [Facts]
-- ==== Proof.Pieces.lean ====
/-
  What one grid point's body leaves behind, as values.  The accumulator block `acc` (512 × 2048) is
  carried from point to point.  At the first point of a row block (k = 0) the body stores the zero block
  and then `0 + x·w`; at every later point it stores `acc + x·w`, where `x` (512 × 2304) and `w`
  (2304 × 2048) are the point's input blocks; at the last point (k = 3) it additionally stores
  `acc' + bias` into the output block, `acc'` being the accumulator it has just written.
-/
import proofs.«155076_j3410204033732_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- First point of a row block: the accumulator ends at `0 + x·w`. -/
theorem acc_first (c : Dev nD) (i : grid0.Coords) (arg3 : Memref sig .tc .vmem S512x2304 .bf16) (harg3 : arg3.IsWhole) (arg4 : Memref sig .tc .vmem S2304x2048 .bf16) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x2048 .f32) (harg7 : arg7.IsWhole) (hc0 : cond0_0 i) (hc1 : ¬cond0_1 i)
    (x0 : Vec F S512x2304 .bf16) (x1 : Vec F S2304x2048 .bf16) (x2 : Vec F S1x2048 .f32) :
    sout0_A_0 c i arg3 harg3 arg4 harg4 arg5 harg5 arg6 harg6 arg7 harg7 hc0 hc1 x0 x1 x2 = k0_pay2 (k0_pay1 (F := F)) x0 x1 := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S512x2048) hz, View.readCov_unit_zero (S := S512x2048) _ hz]
  simp only [View.readAt_eq_ld, harg3.read_unread, harg4.read_unread, harg5.read_unread, harg7.read_unread, View.ld_unit_zero (S := S512x2304) hz, View.ld_unit_zero (S := S2304x2048) hz, View.ld_unit_zero (S := S512x2048) hz, View.ld_unit_zero (S := S1x2048) hz]

/-- A middle point: the accumulator ends at `acc + x·w`. -/
theorem acc_middle (c : Dev nD) (i : grid0.Coords) (arg3 : Memref sig .tc .vmem S512x2304 .bf16) (harg3 : arg3.IsWhole) (arg4 : Memref sig .tc .vmem S2304x2048 .bf16) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x2048 .f32) (harg7 : arg7.IsWhole) (hc0 : ¬cond0_0 i) (hc1 : ¬cond0_1 i)
    (x0 : Vec F S512x2304 .bf16) (x1 : Vec F S2304x2048 .bf16) (x2 : Vec F S1x2048 .f32) (xs0 : Vec F S512x2048 .f32) :
    sout0_B_0 c i arg3 harg3 arg4 harg4 arg5 harg5 arg6 harg6 arg7 harg7 hc0 hc1 x0 x1 x2 xs0 = k0_pay2 xs0 x0 x1 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  sl_unfold_words
  rw [View.canon_unit_zero hz]
  simp only [View.readAt_eq_ld, harg3.read_unread, harg4.read_unread, harg7.read_unread, View.ld_unit_zero (S := S512x2304) hz, View.ld_unit_zero (S := S2304x2048) hz, View.ld_unit_zero (S := S512x2048) hz]

/-- The last point: the accumulator ends at `acc + x·w`, -/
theorem acc_last (c : Dev nD) (i : grid0.Coords) (arg3 : Memref sig .tc .vmem S512x2304 .bf16) (harg3 : arg3.IsWhole) (arg4 : Memref sig .tc .vmem S2304x2048 .bf16) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x2048 .f32) (harg7 : arg7.IsWhole) (hc0 : ¬cond0_0 i) (hc1 : cond0_1 i)
    (x0 : Vec F S512x2304 .bf16) (x1 : Vec F S2304x2048 .bf16) (x2 : Vec F S1x2048 .f32) (xs0 : Vec F S512x2048 .f32) :
    sout0_C_0 c i arg3 harg3 arg4 harg4 arg5 harg5 arg6 harg6 arg7 harg7 hc0 hc1 x0 x1 x2 xs0 = k0_pay2 xs0 x0 x1 := by
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  sl_unfold_words
  rw [View.canon_unit_zero hz]
  simp only [View.readAt_eq_ld, harg3.read_unread, harg4.read_unread, harg5.read_unread, harg7.read_unread, View.ld_unit_zero (S := S512x2304) hz, View.ld_unit_zero (S := S2304x2048) hz, View.ld_unit_zero (S := S512x2048) hz, View.ld_unit_zero (S := S1x2048) hz]

/-- and the output block at that accumulator plus the bias row. -/
theorem out_last (c : Dev nD) (i : grid0.Coords) (arg3 : Memref sig .tc .vmem S512x2304 .bf16) (harg3 : arg3.IsWhole) (arg4 : Memref sig .tc .vmem S2304x2048 .bf16) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x2048 .f32) (harg7 : arg7.IsWhole) (hc0 : ¬cond0_0 i) (hc1 : cond0_1 i)
    (x0 : Vec F S512x2304 .bf16) (x1 : Vec F S2304x2048 .bf16) (x2 : Vec F S1x2048 .f32) (xs0 : Vec F S512x2048 .f32) :
    out0_C_3 c i arg3 harg3 arg4 harg4 arg5 harg5 arg6 harg6 arg7 harg7 hc0 hc1 x0 x1 x2 xs0 = k0_pay3 (k0_pay2 xs0 x0 x1) x2 := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words
  rw [View.canon_unit_zero hz, View.readCov_unit_zero (S := S512x2048) _ hz]
  simp only [View.readAt_eq_ld, harg3.read_unread, harg4.read_unread, harg5.read_unread, harg7.read_unread, View.ld_unit_zero (S := S512x2304) hz, View.ld_unit_zero (S := S2304x2048) hz, View.ld_unit_zero (S := S512x2048) hz, View.ld_unit_zero (S := S1x2048) hz]

end Cert.KernelIdeal.Pieces

end
-- ==== Proof.LibDotEntry.lean ====
/-
  A matrix product read at an entry, on the host and on the TensorCore. At exact arithmetic the host's `dot_general` of an m×K matrix by a K×n
  matrix, whose dimension numbers contract the left factor's columns against the right factor's rows, has at entry
  (p, q) the sum over k of left (p, k) · right (k, q) — the same sum a TensorCore matrix product into a zero
  accumulator has there. Stated for any dimension record of these three shapes, given where it sends an output index
  and a contraction index.
-/
import Idealize.ShloMosaic.Lib.ValueIdx
import Idealize.ShloMosaic.PureOps.Ideal.Laws

noncomputable section

namespace Cert.Lib.DotEntry

open Idealize.ShloMosaic Idealize.ShloMosaic.TcCoe Idealize.SL.Sem Idealize.ShloMosaic.ValueIdx

/-- The host's product of an m×K by a K×n matrix, read at entry (p, q), is the sum over the one contracted axis of
    the products of row p of the left factor with column q of the right factor. The four hypotheses say where the
    product's dimension numbers send an output index and a contraction index: to (row, k) on the left and
    (k, column) on the right. -/
theorem dotGeneral_ix2 {m K n : Nat} (D : DotDims ⟨2, ![m, K]⟩ ⟨2, ![K, n]⟩ ⟨2, ![m, n]⟩)
    (hr : D.contr.rank = 1) (hs : D.contr.size ⟨0, by omega⟩ = K)
    (hl0 : ∀ (i : (⟨2, ![m, n]⟩ : Shape).Idx) (c : D.contr.Idx), (D.lhsIdx i c 0).val = (i 0).val)
    (hl1 : ∀ (i : (⟨2, ![m, n]⟩ : Shape).Idx) (c : D.contr.Idx), (D.lhsIdx i c 1).val = (c ⟨0, by omega⟩).val)
    (hr0 : ∀ (i : (⟨2, ![m, n]⟩ : Shape).Idx) (c : D.contr.Idx), (D.rhsIdx i c 0).val = (c ⟨0, by omega⟩).val)
    (hr1 : ∀ (i : (⟨2, ![m, n]⟩ : Shape).Idx) (c : D.contr.Idx), (D.rhsIdx i c 1).val = (i 1).val)
    (lhs : FVec Ideal ⟨2, ![m, K]⟩ .f32) (rhs : FVec Ideal ⟨2, ![K, n]⟩ .f32) (p : Fin m) (q : Fin n) :
    Host.dotGeneral (F := Ideal) D none lhs rhs (ix2 p q) = ∑ k : Fin K, lhs (ix2 p k) * rhs (ix2 k q) := by
  simp only [Host.dotGeneral]
  rw [Ideal.dotGeneral_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

/-- A TensorCore product of an m×K by a K×n matrix (of any two float formats: at exact arithmetic a format is only a
    label) into a zero accumulator, read at entry (p, q), is the same sum. -/
theorem matmul_zero_ix2 {m K n : Nat} {φ₁ φ₂ : FTy} (D : DotDims ⟨2, ![m, K]⟩ ⟨2, ![K, n]⟩ ⟨2, ![m, n]⟩)
    (hr : D.contr.rank = 1) (hs : D.contr.size ⟨0, by omega⟩ = K)
    (hl0 : ∀ (i : (⟨2, ![m, n]⟩ : Shape).Idx) (c : D.contr.Idx), (D.lhsIdx i c 0).val = (i 0).val)
    (hl1 : ∀ (i : (⟨2, ![m, n]⟩ : Shape).Idx) (c : D.contr.Idx), (D.lhsIdx i c 1).val = (c ⟨0, by omega⟩).val)
    (hr0 : ∀ (i : (⟨2, ![m, n]⟩ : Shape).Idx) (c : D.contr.Idx), (D.rhsIdx i c 0).val = (c ⟨0, by omega⟩).val)
    (hr1 : ∀ (i : (⟨2, ![m, n]⟩ : Shape).Idx) (c : D.contr.Idx), (D.rhsIdx i c 1).val = (i 1).val)
    (lhs : FVec Ideal ⟨2, ![m, K]⟩ φ₁) (rhs : FVec Ideal ⟨2, ![K, n]⟩ φ₂) (p : Fin m) (q : Fin n) :
    matmul D none lhs rhs (constant (F := Ideal) ⟨2, ![m, n]⟩ .f32 0x00000000#32) (ix2 p q)
      = ∑ k : Fin K, lhs (ix2 p k) * rhs (ix2 k q) := by
  refine (Ideal.matmul_constant_zero_apply D none lhs rhs (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

end Cert.Lib.DotEntry

end
-- ==== Proof.LibMatDims.lean ====
/-
  The dimension numbers of a plain matrix product, read at an entry.

  A product of an m×K matrix by a K×n matrix that contracts the left factor's columns against the right factor's rows,
  with no batch axes, reads — at output entry (p, q) and contraction position k — the left factor at (p, k) and the
  right factor at (k, q).  These are the four index facts the entry-wise reading of a product asks for, derived once
  from the lists of the dimension record instead of per record.
-/
import Idealize.ShloMosaic.PureOps.Dims

noncomputable section

namespace Cert.Lib.MatDims

open Idealize.ShloMosaic

variable {m K n : Nat} (D : DotDims ⟨2, ![m, K]⟩ ⟨2, ![K, n]⟩ ⟨2, ![m, n]⟩)

/-- One contracted axis. -/
theorem contr_rank (hc : D.lhsContracting = [1]) : D.contr.rank = 1 := by
  rw [D.rank_contr, hc]; rfl

/-- Its extent is the left factor's column count. -/
theorem contr_size (hc : D.lhsContracting = [1]) :
    D.contr.size ⟨0, by rw [contr_rank D hc]; exact Nat.one_pos⟩ = K := by
  rw [D.size_contr 0 (by rw [hc]; exact Nat.one_pos)]
  simp only [hc]
  rfl

/-- The left factor's row is the output's row. -/
theorem lhs_row (hb : D.lhsBatch = []) (hn : D.lhsNonContracting = [0])
    (i : (⟨2, ![m, n]⟩ : Shape).Idx) (c : D.contr.Idx) : (D.lhsIdx i c 0).val = (i 0).val := by
  unfold DotDims.lhsIdx
  rw [dif_neg (by rw [hb]; exact List.not_mem_nil), dif_pos (by rw [hn]; exact List.mem_singleton.mpr rfl)]
  simp only [Fin.val_cast]
  have key : ∀ (p q : Nat) (hp : p < (⟨2, ![m, n]⟩ : Shape).rank) (hq : q < (⟨2, ![m, n]⟩ : Shape).rank), p = q →
      (i ⟨p, hp⟩).val = (i ⟨q, hq⟩).val := fun p q hp hq h => by subst h; rfl
  exact key _ _ _ _ (by simp [hb, hn])

/-- The left factor's column is the contraction position. -/
theorem lhs_col (hc : D.lhsContracting = [1]) (i : (⟨2, ![m, n]⟩ : Shape).Idx) (c : D.contr.Idx) :
    (D.lhsIdx i c 1).val = (c ⟨0, by rw [contr_rank D hc]; exact Nat.one_pos⟩).val :=
  D.lhsIdx_val_of_single hc i c

/-- The right factor's row is the contraction position. -/
theorem rhs_row (hc : D.lhsContracting = [1]) (hc' : D.rhsContracting = [0]) (i : (⟨2, ![m, n]⟩ : Shape).Idx)
    (c : D.contr.Idx) : (D.rhsIdx i c 0).val = (c ⟨0, by rw [contr_rank D hc]; exact Nat.one_pos⟩).val :=
  D.rhsIdx_val_of_single hc' i c

/-- The right factor's column is the output's column. -/
theorem rhs_col (hb : D.lhsBatch = []) (hb' : D.rhsBatch = []) (hn : D.lhsNonContracting = [0])
    (hn' : D.rhsNonContracting = [1]) (i : (⟨2, ![m, n]⟩ : Shape).Idx) (c : D.contr.Idx) :
    (D.rhsIdx i c 1).val = (i 1).val := by
  unfold DotDims.rhsIdx
  rw [dif_neg (by rw [hb']; exact List.not_mem_nil), dif_pos (by rw [hn']; exact List.mem_singleton.mpr rfl)]
  simp only [Fin.val_cast]
  have key : ∀ (p q : Nat) (hp : p < (⟨2, ![m, n]⟩ : Shape).rank) (hq : q < (⟨2, ![m, n]⟩ : Shape).rank), p = q →
      (i ⟨p, hp⟩).val = (i ⟨q, hq⟩).val := fun p q hp hq h => by subst h; rfl
  exact key _ _ _ _ (by simp [hb, hn, hn'])

end Cert.Lib.MatDims

end
-- ==== Proof.PayEntry.lean ====
/-
  The body's three stored values read at an entry, at exact arithmetic: the zero block is 0 everywhere;
  the accumulation step at (p, q) is acc(p, q) + Σᵣ x(p, r) · w(r, q) over the 2304 positions of the
  point's slice of the contracted axis; the final store at (p, q) is acc(p, q) + bias(0, q).
-/
import proofs.«155076_j3410204033732_2_alg».proof.Proof.Gen.KernelIdeal.Skeleton
import proofs.«155076_j3410204033732_2_alg».proof.Proof.LibDotEntry
import proofs.«155076_j3410204033732_2_alg».proof.Proof.LibMatDims
import Idealize.ShloMosaic.Lib.Pipeline.Value
import Idealize.ShloMosaic.Lib.ValueIdx
import Idealize.ShloMosaic.PureOps.Ideal.Laws

noncomputable section

namespace Cert.KernelIdeal.PayEntry

open Idealize.ShloMosaic Idealize.ShloMosaic.ValueIdx Cert.KernelIdeal Cert.KernelIdeal.Gen

/-- The block product's dimension record: a 512 × 2304 block times a 2304 × 2048 block. -/
abbrev mm : DotDims S512x2304 S2304x2048 S512x2048 := dot_S512x2304_S2304x2048_S512x2048_1_0_0_1_n_n

/-- The block product into a zero accumulator, at an entry: the sum over the 2304 contracted positions. -/
theorem block_product (x0 : FVec Ideal S512x2304 .bf16) (x1 : FVec Ideal S2304x2048 .bf16) (p : Fin 512) (q : Fin 2048) :
    matmul mm none x0 x1 (constant (F := Ideal) S512x2048 .f32 0x00000000#32) (ix2 p q)
      = ∑ r : Fin 2304, x0 (ix2 p r) * x1 (ix2 r q) :=
  Cert.Lib.DotEntry.matmul_zero_ix2 mm (Cert.Lib.MatDims.contr_rank mm rfl) (Cert.Lib.MatDims.contr_size mm rfl)
    (Cert.Lib.MatDims.lhs_row mm rfl rfl) (Cert.Lib.MatDims.lhs_col mm rfl) (Cert.Lib.MatDims.rhs_row mm rfl rfl)
    (Cert.Lib.MatDims.rhs_col mm rfl rfl rfl rfl) x0 x1 p q

/-- The zero block is zero at every entry. -/
theorem zero_entry (i : S512x2048.Idx) : k0_pay1 (F := Ideal) i = 0 := by
  unfold k0_pay1
  simp only [shapeCast_self]
  exact Ideal.ofBits_zero_f32

/-- The accumulation step at an entry. -/
theorem step_entry (acc : Vec Ideal S512x2048 .f32) (x0 : Vec Ideal S512x2304 .bf16) (x1 : Vec Ideal S2304x2048 .bf16)
    (p : Fin 512) (q : Fin 2048) :
    k0_pay2 (F := Ideal) acc x0 x1 (ix2 p q) = acc (ix2 p q) + ∑ r : Fin 2304, x0 (ix2 p r) * x1 (ix2 r q) := by
  unfold k0_pay2
  simp only [shapeCast_self]
  exact congrArg (fun z => acc (ix2 p q) + z) (block_product x0 x1 p q)

/-- The final store at an entry: the accumulator plus the bias row's entry in that column. -/
theorem last_entry (acc : Vec Ideal S512x2048 .f32) (b : Vec Ideal S1x2048 .f32) (p : Fin 512) (q : Fin 2048) :
    k0_pay3 (F := Ideal) acc b (ix2 p q) = acc (ix2 p q) + b (ix2 0 q) := by
  unfold k0_pay3
  simp only [shapeCast_self]
  refine congrArg (fun z => acc (ix2 p q) + z) ?_
  refine broadcastTo_apply b broadcasts_S1x2048_S512x2048 (ix2 p q) (ix2 0 q) fun a => ?_
  match a with
  | ⟨0, _⟩ => show (0 : ℕ) = if (1 : ℕ) = 1 then 0 else _; rw [if_pos rfl]
  | ⟨1, _⟩ => show q.val = if (2048 : ℕ) = 1 then 0 else q.val; rw [if_neg (by decide)]

end Cert.KernelIdeal.PayEntry

end
-- ==== Proof.LibNatRead.lean ====
/-
  Reading an array at natural-number coordinates.

  An entry of a rank-one, rank-two or rank-three array is addressed by a tuple of bounded coordinates; tile arithmetic
  (block index times block size plus offset) is easier to state over plain natural numbers. `at1`, `at2`, `at3`
  read the array at natural coordinates, giving zero outside the extents, and each entry IS the reading at the values
  of its coordinates (`apply_eq_at1` … `apply_eq_at3`), so an index equation becomes one equation of naturals per axis.
-/
import Idealize.ShloMosaic.Lib.ValueIdx

noncomputable section

namespace Cert.Lib.NatRead

open Idealize.ShloMosaic Idealize.ShloMosaic.ValueIdx

variable {α : Type} [Zero α]

/-- A length-`a` vector read at a natural position: its entry when in range, zero otherwise. -/
def at1 {a : ℕ} (A : (⟨1, ![a]⟩ : Shape).Idx → α) (r : ℕ) : α :=
  if h : r < a then A (ix1 ⟨r, h⟩) else 0

theorem at1_of_lt {a : ℕ} (A : (⟨1, ![a]⟩ : Shape).Idx → α) {r : ℕ} (hr : r < a) : at1 A r = A (ix1 ⟨r, hr⟩) := dif_pos hr

/-- An entry of a vector is the reading at the value of its coordinate. -/
theorem apply_eq_at1 {a : ℕ} (A : (⟨1, ![a]⟩ : Shape).Idx → α) (j : (⟨1, ![a]⟩ : Shape).Idx) {r : ℕ} (hr : (j 0).val = r) :
    A j = at1 A r := by
  subst hr
  rw [at1_of_lt A (j 0).isLt]
  exact congrArg A (eq_ix1 j)

/-- An `[a, b]` array read at natural coordinates: its entry when both are in range, zero otherwise. -/
def at2 {a b : ℕ} (A : (⟨2, ![a, b]⟩ : Shape).Idx → α) (r c : ℕ) : α :=
  if h : r < a ∧ c < b then A (ix2 ⟨r, h.1⟩ ⟨c, h.2⟩) else 0

theorem at2_of_lt {a b : ℕ} (A : (⟨2, ![a, b]⟩ : Shape).Idx → α) {r c : ℕ} (hr : r < a) (hc : c < b) :
    at2 A r c = A (ix2 ⟨r, hr⟩ ⟨c, hc⟩) := dif_pos ⟨hr, hc⟩

/-- An entry of a matrix is the reading at the values of its two coordinates. -/
theorem apply_eq_at2 {a b : ℕ} (A : (⟨2, ![a, b]⟩ : Shape).Idx → α) (j : (⟨2, ![a, b]⟩ : Shape).Idx) {r c : ℕ}
    (hr : (j 0).val = r) (hc : (j 1).val = c) : A j = at2 A r c := by
  subst hr hc
  rw [at2_of_lt A (idx2_lt0 j) (idx2_lt1 j)]
  exact congrArg A (eq_ix2 j)

/-- An `[a, b, c]` array read at natural coordinates: its entry when all three are in range, zero otherwise. -/
def at3 {a b c : ℕ} (A : (⟨3, ![a, b, c]⟩ : Shape).Idx → α) (r s u : ℕ) : α :=
  if h : r < a ∧ s < b ∧ u < c then A (ix3 ⟨r, h.1⟩ ⟨s, h.2.1⟩ ⟨u, h.2.2⟩) else 0

theorem at3_of_lt {a b c : ℕ} (A : (⟨3, ![a, b, c]⟩ : Shape).Idx → α) {r s u : ℕ} (hr : r < a) (hs : s < b) (hu : u < c) :
    at3 A r s u = A (ix3 ⟨r, hr⟩ ⟨s, hs⟩ ⟨u, hu⟩) := dif_pos ⟨hr, hs, hu⟩

/-- An entry of a rank-three array is the reading at the values of its three coordinates. -/
theorem apply_eq_at3 {a b c : ℕ} (A : (⟨3, ![a, b, c]⟩ : Shape).Idx → α) (j : (⟨3, ![a, b, c]⟩ : Shape).Idx) {r s u : ℕ}
    (hr : (j 0).val = r) (hs : (j 1).val = s) (hu : (j 2).val = u) : A j = at3 A r s u := by
  subst hr hs hu
  rw [at3_of_lt A (j 0).isLt (j 1).isLt (j 2).isLt]
  exact congrArg A (eq_ix3 j)

end Cert.Lib.NatRead

end
-- ==== Proof.Blocks.lean ====
/-
  Which entries of the whole arrays a grid point's blocks are.  The grid has 8 row blocks times 4 slices
  of the contracted axis; point `t` is row block `t / 4`, slice `t % 4`.  Its block of the padded `x`
  is rows 512·(t/4) … and columns 2304·(t%4) …; its block of the scattered matrix is rows 2304·(t%4) …,
  all 2048 columns; the bias row is read whole at every point; the output block is rows 512·(t/4) ….
-/
import proofs.«155076_j3410204033732_2_alg».proof.Proof.Gen.KernelIdeal.Frame
import proofs.«155076_j3410204033732_2_alg».proof.Proof.LibNatRead
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.Lib.NatRead

variable (m : (ℓ : Loc nD τ sig) → Buf (Elt Ideal) ℓ) (c : Dev nD)

/-- The padded `x` as the kernel finds it. -/
abbrev X : (⟨2, ![4096, 9216]⟩ : Shape).Idx → EReal := V m c main_v21
/-- The scattered matrix as the kernel finds it. -/
abbrev W : (⟨2, ![9216, 2048]⟩ : Shape).Idx → EReal := V m c main_v19
/-- The bias row as the kernel finds it. -/
abbrev B : (⟨2, ![1, 2048]⟩ : Shape).Idx → EReal := V m c main_v22

/-- The printed index maps, decided once over the 32 grid points. -/
theorem idx_facts : ∀ t : Fin cfg0.N,
    win0_0.index t (0 : Fin 2) = t.val / 4 ∧ win0_0.index t (1 : Fin 2) = t.val % 4
    ∧ win0_1.index t (0 : Fin 2) = t.val % 4 ∧ win0_1.index t (1 : Fin 2) = 0
    ∧ win0_2.index t (0 : Fin 2) = 0 ∧ win0_2.index t (1 : Fin 2) = 0
    ∧ win0_3.index t (0 : Fin 2) = t.val / 4 ∧ win0_3.index t (1 : Fin 2) = 0 :=
  (by decide +kernel : ∀ t : Fin grid0.N, _)

/-- The point's block of the padded `x`, at an entry. -/
theorem xblk (t : Fin cfg0.N) (p : Fin 512) (r : Fin 2304) :
    (iblk m c 0 t : Vec Ideal S512x2304 .bf16) (ix2 p r) = at2 (X m c) (512 * (t.val / 4) + p.val) (2304 * (t.val % 4) + r.val) := by
  obtain ⟨e0, e1, -⟩ := idx_facts t
  unfold iblk
  rw [View.read_apply]
  show V m c main_v21 _ = _
  refine apply_eq_at2 (X m c) _ ?_ ?_
  · show win0_0.index t (0 : Fin 2) * 512 + 1 * p.val = _
    omega
  · show win0_0.index t (1 : Fin 2) * 2304 + 1 * r.val = _
    omega

/-- The point's block of the scattered matrix, at an entry. -/
theorem wblk (t : Fin cfg0.N) (r : Fin 2304) (q : Fin 2048) :
    (iblk m c 1 t : Vec Ideal S2304x2048 .bf16) (ix2 r q) = at2 (W m c) (2304 * (t.val % 4) + r.val) q.val := by
  obtain ⟨-, -, e2, e3, -⟩ := idx_facts t
  unfold iblk
  rw [View.read_apply]
  show V m c main_v19 _ = _
  refine apply_eq_at2 (W m c) _ ?_ ?_
  · show win0_1.index t (0 : Fin 2) * 2304 + 1 * r.val = _
    omega
  · show win0_1.index t (1 : Fin 2) * 2048 + 1 * q.val = _
    omega

/-- The bias row's block is the row itself. -/
theorem bblk (t : Fin cfg0.N) (q : Fin 2048) :
    (iblk m c 2 t : Vec Ideal S1x2048 .f32) (ix2 0 q) = at2 (B m c) 0 q.val := by
  obtain ⟨-, -, -, -, e4, e5, -⟩ := idx_facts t
  unfold iblk
  rw [View.read_apply]
  show V m c main_v22 _ = _
  refine apply_eq_at2 (B m c) _ ?_ ?_
  · show win0_2.index t (0 : Fin 2) * 1 + 1 * 0 = _
    omega
  · show win0_2.index t (1 : Fin 2) * 2048 + 1 * q.val = _
    omega

end Cert.KernelIdeal.Blocks

end
-- ==== Proof.Accum.lean ====
/-
  What the carried accumulator holds after any grid point.  Point `n` adds to entry (p, q) of the
  accumulator its slice's part of the row-times-column product,
      Σᵣ X(512·(n/4) + p, 2304·(n%4) + r) · W(2304·(n%4) + r, q),   r over the slice's 2304 positions;
  the first point of a row block starts from the zero block.  So after point `t` the accumulator is
  0 plus the parts of the points from the start of `t`'s row block up to `t`.
-/
import proofs.«155076_j3410204033732_2_alg».proof.Proof.Gen.KernelIdeal.Value
import proofs.«155076_j3410204033732_2_alg».proof.Proof.Pieces
import proofs.«155076_j3410204033732_2_alg».proof.Proof.PayEntry
import proofs.«155076_j3410204033732_2_alg».proof.Proof.Blocks

noncomputable section

open Idealize.ShloMosaic Idealize.ShloMosaic.TcCoe Idealize.SL.Sem Idealize.ShloMosaic.ValueIdx
open Idealize.ShloMosaic.Pipeline (Dat)

namespace Cert.KernelIdeal.Accum

open Cert.KernelIdeal Cert.KernelIdeal.Gen Cert.KernelIdeal.Value Cert.KernelIdeal.Blocks Cert.Lib.NatRead

variable (m : (ℓ : Loc nD τ sig) → Buf (Elt Ideal) ℓ) (c : Dev nD)

/-- Point `n`'s part of entry `y` of its row block's product. -/
def part (n : ℕ) (y : S512x2048.Idx) : EReal :=
  ∑ r : Fin 2304, at2 (X m c) (512 * (n / 4) + (y 0).val) (2304 * (n % 4) + r.val) * at2 (W m c) (2304 * (n % 4) + r.val) (y 1).val

/-- One accumulation step at point `n`, at an entry: the accumulator plus the point's part. -/
theorem step_at (n : ℕ) (hb : n < cfg0.N) (acc : Vec Ideal S512x2048 .f32) (y : S512x2048.Idx) :
    k0_pay2 (F := Ideal) acc (iblk m c 0 ⟨n, hb⟩) (iblk m c 1 ⟨n, hb⟩) y = acc y + part m c n y := by
  obtain ⟨p, q, rfl⟩ : ∃ (p : Fin 512) (q : Fin 2048), y = ix2 p q := ⟨y 0, y 1, eq_ix2 y⟩
  refine (PayEntry.step_entry acc _ _ p q).trans ?_
  refine congrArg (fun z => acc (ix2 p q) + z) ?_
  unfold part
  refine Finset.sum_congr rfl fun r _ => ?_
  rw [xblk m c ⟨n, hb⟩ p r, wblk m c ⟨n, hb⟩ r q]

/-- The first point of a row block leaves 0 plus its part. -/
theorem first_at (n : ℕ) (hb : n < cfg0.N) (h0 : n % 4 = 0) (junk : Vec Ideal S512x2048 .f32) (y : S512x2048.Idx) :
    scAt0_0 m c n hb junk y = 0 + part m c n y := by
  have h1 : ¬n % 4 = 3 := by omega
  unfold scAt0_0
  rw [dif_pos h0, dif_neg h1, Pieces.acc_first]
  refine (step_at m c n hb _ y).trans ?_
  rw [PayEntry.zero_entry]

/-- Every later point of the row block adds its part. -/
theorem later_at (n : ℕ) (hb : n < cfg0.N) (h0 : ¬n % 4 = 0) (acc : Vec Ideal S512x2048 .f32) (y : S512x2048.Idx) :
    scAt0_0 m c n hb acc y = acc y + part m c n y := by
  unfold scAt0_0
  rw [dif_neg h0]
  by_cases h1 : n % 4 = 3
  · rw [dif_pos h1, Pieces.acc_last]
    exact step_at m c n hb acc y
  · rw [dif_neg h1, Pieces.acc_middle]
    exact step_at m c n hb acc y

/-- The accumulator after point `t`: 0 plus the parts of the points of `t`'s row block up to `t`. -/
theorem acc_after (t : Fin cfg0.N) (y : S512x2048.Idx) :
    (outsAt0 m c t.val t.isLt).2 y = 0 + ∑ s ∈ Finset.range (t.val % 4 + 1), part m c (4 * (t.val / 4) + s) y := by
  rw [soutsAt0_0_eq]
  refine Pipeline.accAt_add_apply _ _ (fun _ => (0 : EReal)) (part m c) (4 * (t.val / 4)) 3 ?_ ?_ (t.val % 4) (by omega) _ y
  · intro h i
    exact first_at m c _ h (by omega) _ i
  · intro n h acc i h1 h2
    exact later_at m c n h (by omega) acc i

end Cert.KernelIdeal.Accum

end
-- ==== Proof.LibSumBlocks.lean ====
/-
  Regrouping a finite sum by blocks.  A sum over `Fin n` with `n = a * b` is the sum over the `a`
  blocks of `b` consecutive positions of each block's sum: position `p * b + q` is the `q`-th of
  block `p`.  Valid in any commutative additive monoid (the extended reals included: no
  cancellation is used), because it is only a re-indexing along the bijection
  `Fin a × Fin b ≃ Fin (a * b)`.
-/
import Mathlib.Algebra.BigOperators.Fin
import Mathlib.Logic.Equiv.Fin.Basic

namespace LibSumBlocks

/-- Position `q` of block `p` lies below `a * b`. -/
theorem mul_add_lt {a b p q : ℕ} (hp : p < a) (hq : q < b) : p * b + q < a * b :=
  calc p * b + q < p * b + b := by omega
    _ = (p + 1) * b := by rw [Nat.add_mul, Nat.one_mul]
    _ ≤ a * b := Nat.mul_le_mul_right b hp

/-- A sum over `Fin n`, `n = a * b`, is the double sum over the block `p : Fin a` and the position
    `q : Fin b` inside it of the term at `p * b + q`. -/
theorem sum_fin_blocks {M : Type*} [AddCommMonoid M] {n : ℕ} (a b : ℕ) (hn : a * b = n) (f : Fin n → M) :
    ∑ i : Fin n, f i
      = ∑ p : Fin a, ∑ q : Fin b, f ⟨p.val * b + q.val, hn ▸ mul_add_lt p.isLt q.isLt⟩ := by
  subst hn
  rw [← Equiv.sum_comp finProdFinEquiv f, Fintype.sum_prod_type]
  refine Finset.sum_congr rfl fun p _ => Finset.sum_congr rfl fun q _ => ?_
  refine congrArg f (Fin.ext ?_)
  show q.val + b * p.val = p.val * b + q.val
  rw [Nat.mul_comm, Nat.add_comm]

/-- The same for a term that depends on the position only through its value. -/
theorem sum_fin_nat_blocks {M : Type*} [AddCommMonoid M] {n : ℕ} (a b : ℕ) (hn : a * b = n) (g : ℕ → M) :
    ∑ i : Fin n, g i.val = ∑ p : Fin a, ∑ q : Fin b, g (p.val * b + q.val) :=
  sum_fin_blocks a b hn fun i => g i.val

/-- Three levels: `n = a * b * c` positions as `a` blocks of `b` rows of `c` entries; entry `l` of row `r` of
    block `t` is position `(t * b + r) * c + l`. -/
theorem sum_fin_nat_blocks3 {M : Type*} [AddCommMonoid M] {n : ℕ} (a b c : ℕ) (hn : a * b * c = n) (g : ℕ → M) :
    ∑ i : Fin n, g i.val
      = ∑ t : Fin a, ∑ r : Fin b, ∑ l : Fin c, g ((t.val * b + r.val) * c + l.val) := by
  rw [sum_fin_nat_blocks (a * b) c hn g]
  exact sum_fin_nat_blocks a b rfl fun R => ∑ l : Fin c, g (R * c + l.val)

/-- A sum over `Finset.range N` of a function that, below `N`, is a function of the `Fin N` position: the two
    spellings of one sum. -/
theorem sum_range_eq_sum_fin {M : Type*} [AddCommMonoid M] (N : ℕ) (g : ℕ → M) (f : Fin N → M)
    (h : ∀ t : Fin N, g t.val = f t) : ∑ s ∈ Finset.range N, g s = ∑ t : Fin N, f t := by
  rw [← Fin.sum_univ_eq_sum_range]
  exact Finset.sum_congr rfl fun t _ => h t

end LibSumBlocks
-- ==== Proof.Final.lean ====
/-
  The result array after the run.  Entry (b, n) is written once, by the last point (k = 3) of row
  block b / 512, with the accumulator plus the bias: the four slices' parts, which together are the
  whole row-times-column product over the 9216 padded positions,
      Σₖ X(b, k) · W(k, n)  +  B(0, n).
-/
import proofs.«155076_j3410204033732_2_alg».proof.Proof.Accum
import proofs.«155076_j3410204033732_2_alg».proof.Proof.LibSumBlocks
import proofs.«155076_j3410204033732_2_alg».proof.Proof.Gen.KernelIdeal.Points

noncomputable section

open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.KernelIdeal.Value Cert.KernelIdeal.Blocks Cert.KernelIdeal.Accum Cert.Lib.NatRead

variable (m : (ℓ : Loc nD τ sig) → Buf (Elt Ideal) ℓ) (c : Dev nD)

/-- What the result array holds, entry by entry, in terms of the three arrays the kernel reads. -/
def G (j : S4096x2048.Idx) : EReal :=
  (∑ k : Fin 9216, at2 (X m c) (j 0).val k.val * at2 (W m c) k.val (j 1).val) + at2 (B m c) 0 (j 1).val

/-- The four slices' parts of a row block's entry are the whole sum over the padded contracted axis. -/
theorem parts_sum (i : ℕ) (y : S512x2048.Idx) :
    ∑ s ∈ Finset.range 4, part m c (4 * i + s) y
      = ∑ k : Fin 9216, at2 (X m c) (512 * i + (y 0).val) k.val * at2 (W m c) k.val (y 1).val := by
  rw [Finset.sum_range,
    LibSumBlocks.sum_fin_nat_blocks 4 2304 rfl (fun k => at2 (X m c) (512 * i + (y 0).val) k * at2 (W m c) k (y 1).val)]
  refine Finset.sum_congr rfl fun s _ => ?_
  have hs := s.isLt
  have e1 : (4 * i + s.val) / 4 = i := by omega
  have e2 : (4 * i + s.val) % 4 = s.val := by omega
  unfold part
  rw [e1, e2]
  refine Finset.sum_congr rfl fun r _ => ?_
  rw [Nat.mul_comm 2304 s.val]

/-- What a flushing point writes back is its block of `G`. -/
theorem flushed_eq (t : Fin cfg0.N) (hf : (cfg0.win 3).flush t = true) :
    (dats m 0 c).flushed 3 t = ((cfg0.win 3).blk t).view.read (Elt Ideal) (G m c) := by
  have h1 : t.val % 4 = 3 := (flush0_3 t).mp hf
  have h0 : ¬t.val % 4 = 0 := by omega
  rw [flushed3]
  have e1 : (outsAt0 m c t.val t.isLt).1 = k0_pay3 (outsAt0 m c t.val t.isLt).2 (iblk m c 2 t) := by
    rw [outsAt0_C m c t h0 h1]
    dsimp only
    rw [Pieces.out_last, Pieces.acc_last]
  rw [e1]
  obtain ⟨-, -, -, -, -, -, e6, e7⟩ := idx_facts t
  funext y
  obtain ⟨p, q, rfl⟩ : ∃ (p : Fin 512) (q : Fin 2048), y = ix2 p q := ⟨y 0, y 1, eq_ix2 y⟩
  show k0_pay3 (F := Ideal) (outsAt0 m c t.val t.isLt).2 (iblk m c 2 t) (ix2 p q)
    = G m c (((cfg0.win 3).blk t).view.emb (ix2 p q))
  have hj0 : ((((cfg0.win 3).blk t).view.emb (ix2 p q)) 0).val = 512 * (t.val / 4) + p.val := by
    show win0_3.index t (0 : Fin 2) * 512 + 1 * p.val = _
    omega
  have hj1 : ((((cfg0.win 3).blk t).view.emb (ix2 p q)) 1).val = q.val := by
    show win0_3.index t (1 : Fin 2) * 2048 + 1 * q.val = _
    omega
  unfold G
  rw [hj0, hj1, PayEntry.last_entry, acc_after, bblk, h1, zero_add, parts_sum]

/-- Every entry of the result is in some flushing point's block. -/
theorem cover (i : S4096x2048.Idx) : ∃ t : Fin cfg0.N, (cfg0.win 3).flush t = true ∧ i ∈ ((cfg0.win 3).blk t).view.set := by
  have hi0 : (i 0).val < 4096 := (i 0).isLt
  have hi1 : (i 1).val < 2048 := (i 1).isLt
  have hN : cfg0.N = 32 := N_0
  obtain ⟨t, tv⟩ : ∃ t : Fin cfg0.N, t.val = 4 * ((i 0).val / 512) + 3 := ⟨⟨4 * ((i 0).val / 512) + 3, by rw [hN]; omega⟩, rfl⟩
  refine ⟨t, (flush0_3 t).mpr (by omega), ?_⟩
  obtain ⟨-, -, -, -, -, -, e6, e7⟩ := idx_facts t
  show i ∈ ((View.whole main_v23).slice (win0_3.rect t)).set
  rw [View.set_slice_whole, Rect.mem_set_unit]
  intro a
  match a with
  | ⟨0, _⟩ =>
    show win0_3.index t (0 : Fin 2) * 512 ≤ (i 0).val ∧ (i 0).val < win0_3.index t (0 : Fin 2) * 512 + 512
    omega
  | ⟨1, _⟩ =>
    show win0_3.index t (1 : Fin 2) * 2048 ≤ (i 1).val ∧ (i 1).val < win0_3.index t (1 : Fin 2) * 2048 + 2048
    omega

/-- So the result array ends at `G`. -/
theorem final : (dats m 0 c).arrAt 3 cfg0.N = G m c :=
  (dats m 0 c).arrAt_eq_of_cover 3 (G m c) (flushed_eq m c) (cover)

/-- The run, read: the result array at `G`, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v23) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.KernelIdeal.Final

end
-- ==== Proof.LibBufCasts.lean ====
/-
  Contents of a typed buffer reference, moved to the buffer's own type and back.

  A function called from @main states its operations at the types of the tensor values; each operand is moved from its
  buffer's type to the value's type, and each result back, along the equation "the buffer's type is the value's type".
  Whatever that equation's proof, the two moves cancel: reading a called function's line of operations leaves them
  stacked in pairs around every intermediate value, and these two equations remove the pairs without unfolding anything.
-/
import Idealize.ShloMosaic.Lib.StableHlo

namespace Cert.Lib.BufCasts

open Idealize.ShloMosaic Idealize.ShloMosaic.StableHlo

variable {sig : RefSig} {Val : EltTy → Type} {T : BufTy}

/-- Contents moved to the buffer's own type and back to the value's type are unchanged. -/
theorem ofBuf_toBuf (x : TRef sig T) (v : T.Contents Val) : x.ofBuf (x.toBuf v) = v := by
  obtain ⟨r, h, h1, h2⟩ := x
  subst h
  rfl

/-- Contents moved to the value's type and back to the buffer's own type are unchanged. -/
theorem toBuf_ofBuf (x : TRef sig T) (v : x.ref.ty.Contents Val) : x.toBuf (x.ofBuf v) = v := by
  obtain ⟨r, h, h1, h2⟩ := x
  subst h
  rfl

end Cert.Lib.BufCasts
-- ==== Proof.HostArrays.lean ====
/-
  The three arrays the matrix kernel reads, as the host operations before it leave them: `x` with 216
  columns of the padding value appended (9000 → 9216 columns), the 9216 × 2048 matrix scattered from the
  index pairs and the weights, and the bias as a 1 × 2048 row.
-/
import proofs.«155076_j3410204033732_2_alg».proof.Proof.Gen.KernelIdeal.Frame
import proofs.«155076_j3410204033732_2_alg».proof.Proof.LibBufCasts
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.StableHlo

namespace Cert.KernelIdeal.HostArrays

open Cert.KernelIdeal Cert.KernelIdeal.Gen

variable {F : FTy → Type} [FloatOps F]

/-- `x` padded on the right with 216 columns of the padding value. -/
def xPad (x : Vec F S4096x9000 .f32) : Vec F S4096x9216 .bf16 :=
  pad S4096x9216 ![0, 0] ![0, 216] ![0, 0] (truncf .bf16 x bitsLt_bf16_f32) (sitofp (F := F) .bf16 (constantI S_ 32 0#32))
    pads_S4096x9000_S4096x9216_000_02160 h_S_

/-- Column `col` of the index pairs, as a vector. -/
def column (i1 : IVec S200000x2 32) (h : S200000x2.Slices ![0, 0] S200000x1) : IVec S200000 32 :=
  shapeCast S200000 (extractStridedSlice S200000x1 ![0, 0] i1 h) shapeCasts_S200000x1_S200000

/-- An index vector with its negative entries moved up by the axis extent `ext`. -/
def wrapped (ext : BitVec 32) (r : IVec S200000 32) : IVec S200000 32 :=
  select (cmpi .slt r (broadcastInDim S200000 ![] bcast_S_S200000 (constantI S_ 32 0#32)))
    (addi r (broadcastInDim S200000 ![] bcast_S_S200000 (constantI S_ 32 ext))) r

/-- The index pairs after wrapping: rows against 9216, columns against 2048. -/
def idxK (i1 : IVec S200000x2 32) : IVec S200000x2 32 :=
  concatenate S200000x2 1
    [⟨S200000x1, broadcastInDim S200000x1 ![0] bcast_S200000_S200000x1_0
        (wrapped 9216#32 (shapeCast S200000 (extractStridedSlice S200000x1 ![0, 0] i1 slices_S200000x2_S200000x1_0_0) shapeCasts_S200000x1_S200000))⟩,
     ⟨S200000x1, broadcastInDim S200000x1 ![0] bcast_S200000_S200000x1_0
        (wrapped 2048#32 (shapeCast S200000 (extractStridedSlice S200000x1 ![0, 1] i1 slices_S200000x2_S200000x1_0_1) shapeCasts_S200000x1_S200000))⟩]
    concatenates_S200000x1_S200000x1_S200000x2_d1

/-- The scattered 9216 × 2048 matrix. -/
def wK (i1 : IVec S200000x2 32) (w : Vec F S200000 .f32) : Vec F S9216x2048 .bf16 :=
  truncf .bf16 (Host.scatterAdd scatter_S9216x2048_S200000x2_S200000_n_01_01_1
    (broadcastInDim S9216x2048 ![] bcast_S_S9216x2048 (constant (F := F) S_ .f32 0x00000000#32)) (idxK i1) w) bitsLt_bf16_f32

/-- The bias as a row. -/
def biasRow (b : Vec F S2048 .f32) : Vec F S1x2048 .f32 := shapeCast S1x2048 b shapeCasts_S2048_S1x2048

variable (m : (ℓ : Loc nD τ sig) → Buf (Elt F) ℓ)

theorem bias_row (c : Dev nD) : (V m c main_v22 : S1x2048.Idx → Elt F .f32) = biasRow (m ((c : Thread nD τ).loc main_arg3)) := by
  dsimp only [Gen.V]
  simp only [Gen.hostOps0, Gen.hostOps0_1, Gen.hostOps0_2, List.flatten_cons, List.flatten_nil, List.append_nil, List.cons_append, List.nil_append]
  after_results
  rfl

theorem padded_x (c : Dev nD) : (V m c main_v21 : S4096x9216.Idx → Elt F .bf16) = xPad (m ((c : Thread nD τ).loc main_arg0)) := by
  dsimp only [Gen.V]
  simp only [Gen.hostOps0, Gen.hostOps0_1, Gen.hostOps0_2, List.flatten_cons, List.flatten_nil, List.append_nil, List.cons_append, List.nil_append]
  after_results
  simp only [Cert.Lib.BufCasts.ofBuf_toBuf, Cert.Lib.BufCasts.toBuf_ofBuf]
  rfl

set_option maxHeartbeats 2000000 in
theorem scattered_w (c : Dev nD) : (V m c main_v19 : S9216x2048.Idx → Elt F .bf16)
    = wK (m ((c : Thread nD τ).loc main_arg1)) (m ((c : Thread nD τ).loc main_arg2)) := by
  dsimp only [Gen.V]
  simp only [Gen.hostOps0, Gen.hostOps0_1, Gen.hostOps0_2, List.flatten_cons, List.flatten_nil, List.append_nil, List.cons_append, List.nil_append]
  after_results
  rfl

end Cert.KernelIdeal.HostArrays

end
-- ==== Proof.ScatterRows.lean ====
/-
  An accumulating scatter `zeros.at[rows, cols].add(w)` into a matrix, compared across two row counts.
  Update `j` lands at the entry whose coordinates are the two components of index row `j`, read as
  signed integers, and is dropped when either component is outside the matrix.  The landing rule never
  mentions the matrix's extents except for that range test, so scattering the same indices and updates
  into a matrix with MORE rows gives, at every entry of the smaller matrix, the same sum of updates.
-/
import Idealize.ShloMosaic.PureOps.Ideal
import Idealize.ShloMosaic.Lib.ValueIdx

noncomputable section

namespace Cert.ScatterRows

open Idealize.ShloMosaic Idealize.ShloMosaic.ValueIdx

/-- An update lands at entry `i` exactly when, on every axis, the window's start plus the window
    coordinate is `i`'s coordinate (the range test is then implied by `i` being an index). -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    rw [Option.some.injEq]
    constructor
    · intro e a
      have e1 := congrArg Fin.val (congrFun e a)
      have h2 := h a
      simp only at e1
      omega
    · intro e
      funext a
      apply Fin.ext
      have e1 := e a
      have h2 := h a
      simp only
      omega
  · rename_i h
    constructor
    · intro e; cases e
    · intro e
      exact absurd (fun a => by have e1 := e a; have h3 := (i a).isLt; constructor <;> omega) h

/-- The dimension numbers of a two-index accumulating scatter into an `R × C` matrix from `N` index
    rows `[row, col]` and `N` scalar updates: both operand axes are indexed, no window axes. -/
abbrev dims (R C N : ℕ) (wf : ScatterDims.WF ⟨2, ![R, C]⟩ ⟨2, ![N, 2]⟩ ⟨1, ![N]⟩ [] [0, 1] [0, 1] 1) :
    ScatterDims ⟨2, ![R, C]⟩ ⟨2, ![N, 2]⟩ ⟨1, ![N]⟩ := ⟨[], [0, 1], [0, 1], 1, wf⟩

/-- Scattering the same indices and updates into `R' ≥ R` rows: entry `(k, n)` with `k < R` receives the
    same updates in both matrices, so the two results agree there whenever the operands do. -/
theorem scatterAdd_more_rows {R R' C N : ℕ} (hR : R ≤ R')
    (wf' : ScatterDims.WF ⟨2, ![R', C]⟩ ⟨2, ![N, 2]⟩ ⟨1, ![N]⟩ [] [0, 1] [0, 1] 1)
    (wf : ScatterDims.WF ⟨2, ![R, C]⟩ ⟨2, ![N, 2]⟩ ⟨1, ![N]⟩ [] [0, 1] [0, 1] 1)
    (x' : (⟨2, ![R', C]⟩ : Shape).Idx → EReal) (x : (⟨2, ![R, C]⟩ : Shape).Idx → EReal)
    (idx : IVec ⟨2, ![N, 2]⟩ 32) (upd : (⟨1, ![N]⟩ : Shape).Idx → EReal) (k : Fin R) (n : Fin C)
    (hx : x' (ix2 (Fin.castLE hR k) n) = x (ix2 k n)) :
    Ideal.hostScatterAdd (dims R' C N wf') x' idx upd (ix2 (Fin.castLE hR k) n)
      = Ideal.hostScatterAdd (dims R C N wf) x idx upd (ix2 k n) := by
  unfold Ideal.hostScatterAdd
  rw [hx]
  refine congrArg (x (ix2 k n) + ·) ?_
  refine Finset.sum_congr (Finset.filter_congr fun j _ => ?_) fun _ _ => rfl
  rw [resultIdx?_eq_some_iff, resultIdx?_eq_some_iff]
  constructor
  · intro e a
    match a with
    | ⟨0, _⟩ => exact e 0
    | ⟨1, _⟩ => exact e 1
  · intro e a
    match a with
    | ⟨0, _⟩ => exact e 0
    | ⟨1, _⟩ => exact e 1

end Cert.ScatterRows

end
-- ==== Proof.RowsNonneg.lean ====
/-
  The precondition's statement about the index pairs, read back entry by entry: every row index is
  non-negative as a signed 32-bit word.  And its one consequence used here: an index vector with
  non-negative entries is left unchanged by the step that moves negative entries up by an axis extent,
  whatever the extent.
-/
import proofs.«155076_j3410204033732_2_alg».proof.Pre_finite_inputs
import proofs.«155076_j3410204033732_2_alg».proof.Proof.Gen.Pre_finite_inputs
import Idealize.ShloMosaic.Lib.ReduceAll
import Idealize.ShloMosaic.Lib.ValueIdx

noncomputable section

namespace Cert.RowsNonneg

open Idealize.ShloMosaic Idealize.ShloMosaic.ValueIdx

/-- A non-negative word is not below zero, so the wrap keeps it. -/
theorem wrap_word (x ext : BitVec 32) (h : IntOp.cmpi .sge x 0#32 = 1#1) :
    Scalar.select (IntOp.cmpi .slt x 0#32) (IntOp.addi x ext) x = x := by
  have h0 : ¬IntOp.cmpi .slt x 0#32 = 1#1 := fun h1 => by
    have a := IntOp.cmpi_sge.mp h
    have b := IntOp.cmpi_slt.mp h1
    omega
  rw [eq_zero_of_ne_one h0]
  exact select_zero _ _

/-- Entry by entry: an index vector whose entries are all non-negative is unchanged by the wrap. -/
theorem wrap_vec {s : Shape} (r z e : IVec s 32) (hz : ∀ j, z j = 0#32)
    (h : ∀ j, IntOp.cmpi .sge (r j) 0#32 = 1#1) : select (cmpi .slt r z) (addi r e) r = r := by
  funext j
  show Scalar.select (IntOp.cmpi .slt (r j) (z j)) (IntOp.addi (r j) (e j)) (r j) = r j
  rw [hz j]
  exact wrap_word _ _ (h j)

open Cert.Pre_finite_inputs Cert.Pre_finite_inputs.Facts

instance : Subsingleton S_.Idx := ⟨fun a b => funext fun d => d.elim0⟩

variable {F : FTy → Type} [FloatOps F]

/-- The precondition holds only if every row index (column 0 of the index pairs) is non-negative. -/
theorem rows_nonneg (x0 : FVec F S4096x9000 .f32) (i1 : IVec S200000x2 32) (x2 : FVec F S200000 .f32) (x3 : FVec F S2048 .f32)
    (h : fn (F := F) x0 i1 x2 x3 = fun _ => 1#1) (j : S200000.Idx) :
    IntOp.cmpi .sge (shapeCast S200000 (extractStridedSlice S200000x1 ![0, 0] i1 slices_S200000x2_S200000x1_0_0)
      shapeCasts_S200000x1_S200000 j) 0#32 = 1#1 := by
  have h0 := congrFun h ix0
  dsimp only [fn, fn_part1] at h0
  change IntOp.andi _ _ = 1#1 at h0
  have h18 := (IntOp.andi_eq_one.mp h0).2
  exact Host.reduce_andi_all _ _ _ _ ix0 h18 j

end Cert.RowsNonneg

end
-- ==== Proof.Weights.lean ====
/-
  The two scattered weight matrices agree on the reference's rows.  The kernel scatters into 9216 rows
  and moves a negative row index up by 9216; the reference scatters into 9000 rows and moves it up by
  9000.  When no row index is negative neither step changes anything, the two index arrays are the same
  array, and an update lands at entry (k, n) with k < 9000 of one matrix exactly when it lands there in
  the other.
-/
import proofs.«155076_j3410204033732_2_alg».proof.Proof.HostArrays
import proofs.«155076_j3410204033732_2_alg».proof.Proof.ScatterRows
import proofs.«155076_j3410204033732_2_alg».proof.Proof.RowsNonneg
import proofs.«155076_j3410204033732_2_alg».proof.Proof.Gen.ReferenceIdeal.Read

noncomputable section

namespace Cert.Weights

open Idealize.ShloMosaic Idealize.ShloMosaic.ValueIdx

/-- Column 0 of the index pairs: the row indices. -/
abbrev rows (i1 : IVec Cert.KernelIdeal.S200000x2 32) : IVec Cert.KernelIdeal.S200000 32 :=
  shapeCast Cert.KernelIdeal.S200000
    (extractStridedSlice Cert.KernelIdeal.S200000x1 ![0, 0] i1 Cert.KernelIdeal.Facts₀.slices_S200000x2_S200000x1_0_0)
    Cert.KernelIdeal.Facts₀.shapeCasts_S200000x1_S200000

/-- With no negative row index, both programs scatter at the same index array. -/
theorem idx_eq (i1 : IVec Cert.KernelIdeal.S200000x2 32) (hrows : ∀ j, IntOp.cmpi .sge (rows i1 j) 0#32 = 1#1) :
    Cert.KernelIdeal.HostArrays.idxK i1 = Cert.ReferenceIdeal.Read.val_main_v17 (F := Ideal) i1 := by
  have eK : Cert.KernelIdeal.HostArrays.wrapped 9216#32 (rows i1) = rows i1 := by
    unfold Cert.KernelIdeal.HostArrays.wrapped
    exact Cert.RowsNonneg.wrap_vec (rows i1) _ _ (fun _ => rfl) hrows
  have eR : Cert.ReferenceIdeal.Read.val_main_v9 (F := Ideal) i1 = rows i1 :=
    Cert.RowsNonneg.wrap_vec (rows i1) (Cert.ReferenceIdeal.Read.val_main_v5 (F := Ideal))
      (Cert.ReferenceIdeal.Read.val_main_v7 (F := Ideal)) (fun _ => rfl) hrows
  unfold Cert.KernelIdeal.HostArrays.idxK Cert.ReferenceIdeal.Read.val_main_v17 Cert.ReferenceIdeal.Read.val_main_v15
  rw [eR]
  show concatenate _ 1 [⟨_, broadcastInDim _ _ _ (Cert.KernelIdeal.HostArrays.wrapped 9216#32 (rows i1))⟩, _] _ = _
  rw [eK]
  rfl

/-- The zero matrix the kernel scatters into. -/
abbrev zerosK : (⟨2, ![9216, 2048]⟩ : Shape).Idx → EReal :=
  broadcastInDim Cert.KernelIdeal.S9216x2048 ![] Cert.KernelIdeal.Facts₀.bcast_S_S9216x2048
    (constant (F := Ideal) Cert.KernelIdeal.S_ .f32 0x00000000#32)

set_option maxRecDepth 65536 in
/-- The kernel's matrix, as the exact accumulating scatter into 9216 rows. -/
theorem wK_eq (i1 : IVec Cert.KernelIdeal.S200000x2 32) (w : FVec Ideal Cert.KernelIdeal.S200000 .f32)
    (j : (⟨2, ![9216, 2048]⟩ : Shape).Idx) :
    Cert.KernelIdeal.HostArrays.wK (F := Ideal) i1 w j
      = Ideal.hostScatterAdd (Cert.ScatterRows.dims 9216 2048 200000
          Cert.KernelIdeal.Facts₀.scatter_S9216x2048_S200000x2_S200000_n_01_01_1_wf) zerosK
          (Cert.KernelIdeal.HostArrays.idxK i1) w j := rfl

set_option maxRecDepth 65536 in
/-- The reference's matrix, as the exact accumulating scatter into 9000 rows. -/
theorem wR_eq (i1 : IVec Cert.KernelIdeal.S200000x2 32) (w : FVec Ideal Cert.KernelIdeal.S200000 .f32)
    (j : (⟨2, ![9000, 2048]⟩ : Shape).Idx) :
    Cert.ReferenceIdeal.Read.val_main_v18 (F := Ideal) i1 w j
      = Ideal.hostScatterAdd (Cert.ScatterRows.dims 9000 2048 200000
          Cert.ReferenceIdeal.Facts₀.scatter_S9000x2048_S200000x2_S200000_n_01_01_1_wf)
          (Cert.ReferenceIdeal.Read.val_main_v0 (F := Ideal)) (Cert.ReferenceIdeal.Read.val_main_v17 (F := Ideal) i1) w j := rfl

set_option maxRecDepth 65536 in
/-- Entry (k, n), k < 9000, of the kernel's 9216-row matrix is entry (k, n) of the reference's. -/
theorem w_entry (i1 : IVec Cert.KernelIdeal.S200000x2 32) (w : FVec Ideal Cert.KernelIdeal.S200000 .f32)
    (hrows : ∀ j, IntOp.cmpi .sge (rows i1 j) 0#32 = 1#1) (k : Fin 9000) (n : Fin 2048) :
    Cert.KernelIdeal.HostArrays.wK (F := Ideal) i1 w (ix2 (Fin.castLE (by omega : 9000 ≤ 9216) k) n)
      = Cert.ReferenceIdeal.Read.val_main_v18 (F := Ideal) i1 w (ix2 k n) := by
  rw [wK_eq, wR_eq, idx_eq i1 hrows]
  exact Cert.ScatterRows.scatterAdd_more_rows (R := 9000) (R' := 9216) (C := 2048) (N := 200000) (by omega)
    Cert.KernelIdeal.Facts₀.scatter_S9216x2048_S200000x2_S200000_n_01_01_1_wf
    Cert.ReferenceIdeal.Facts₀.scatter_S9000x2048_S200000x2_S200000_n_01_01_1_wf zerosK
    (Cert.ReferenceIdeal.Read.val_main_v0 (F := Ideal)) (Cert.ReferenceIdeal.Read.val_main_v17 (F := Ideal) i1) w k n rfl

end Cert.Weights

end
-- ==== Proof.BlockSum.lean ====
/-
  A sum over a padded axis.  When every term at a position past the first `n` vanishes, the sum over
  the `n'` padded positions is the sum over the first `n`.  Only the neutrality of zero is used, so
  this holds in any commutative additive monoid, the extended reals included.
-/
import Mathlib.Algebra.BigOperators.Fin

namespace Cert.BlockSum

/-- A sum over `Fin n'` whose terms vanish from position `n` on is the sum over `Fin n`. -/
theorem sum_fin_drop_tail {M : Type*} [AddCommMonoid M] {n n' : ℕ} (h : n ≤ n') (f : Fin n' → M)
    (hz : ∀ k : Fin n', n ≤ k.val → f k = 0) : ∑ k : Fin n', f k = ∑ k : Fin n, f (Fin.castLE h k) := by
  obtain ⟨d, rfl⟩ := Nat.exists_eq_add_of_le h
  have tail : ∑ i : Fin d, f (Fin.natAdd n i) = 0 := Finset.sum_eq_zero fun i _ => hz _ (by simp)
  rw [Fin.sum_univ_add, tail, add_zero]
  rfl

end Cert.BlockSum
-- ==== Proof.Bridge.lean ====
/-
  The kernel's result is the reference's.  Entry (b, n) of the kernel's result is
      Σ_{k < 9216} X(b, k) · W(k, n) + B(0, n)
  over the padded arrays.  The padded columns of `x` hold zero, so the terms with k ≥ 9000 vanish
  (0 · w = 0 for every extended real w: no finiteness is needed); below 9000, X(b, k) is x(b, k) and,
  when no row index is negative, W(k, n) is the reference's scattered matrix at (k, n); B(0, n) is
  bias(n).  What is left is the reference's own expression  Σ_{k < 9000} x(b, k) · W_ref(k, n) + bias(n).
-/
import proofs.«155076_j3410204033732_2_alg».proof.Proof.Final
import proofs.«155076_j3410204033732_2_alg».proof.Proof.HostArrays
import proofs.«155076_j3410204033732_2_alg».proof.Proof.Weights
import proofs.«155076_j3410204033732_2_alg».proof.Proof.BlockSum
import proofs.«155076_j3410204033732_2_alg».proof.Proof.Gen.ReferenceIdeal.Read
import Idealize.ShloMosaic.Lib.KernelVsHost

noncomputable section

open Idealize.ShloMosaic Idealize.ShloMosaic.TcCoe Idealize.SL.Sem Idealize.ShloMosaic.ValueIdx

namespace Cert.KernelIdeal.Bridge

open Cert.KernelIdeal Cert.KernelIdeal.Gen Cert.KernelIdeal.Blocks Cert.Lib.NatRead

variable (m : (ℓ : Loc nD τ sig) → Buf (Elt Ideal) ℓ) (c : Dev nD)

/-- The argument arrays, as functions of an index into extended reals. -/
abbrev argX : (⟨2, ![4096, 9000]⟩ : Shape).Idx → EReal := m ((c : Thread nD τ).loc main_arg0)
abbrev argI : IVec S200000x2 32 := m ((c : Thread nD τ).loc main_arg1)
abbrev argW : (⟨1, ![200000]⟩ : Shape).Idx → EReal := m ((c : Thread nD τ).loc main_arg2)
abbrev argB : (⟨1, ![2048]⟩ : Shape).Idx → EReal := m ((c : Thread nD τ).loc main_arg3)

/-- Inside the first 9000 columns the padded array is `x`. -/
theorem x_in (b : Fin 4096) (k : Fin 9000) : at2 (X m c) b.val k.val = argX m c (ix2 b k) := by
  rw [at2_of_lt (X m c) b.isLt (show k.val < 9216 by have := k.isLt; omega)]
  show (V m c main_v21 : S4096x9216.Idx → Elt Ideal .bf16) _ = _
  rw [HostArrays.padded_x]
  unfold HostArrays.xPad
  exact pad_apply_of_inside _ _ _ _ _ _ _ _ (ix2 b k) (fun a => match a with
    | ⟨0, _⟩ => by show b.val = 0 + b.val * (0 + 1); omega
    | ⟨1, _⟩ => by show k.val = 0 + k.val * (0 + 1); omega)

/-- In the 216 appended columns it is zero. -/
theorem x_out (b : Fin 4096) (k : Fin 9216) (hk : 9000 ≤ k.val) : at2 (X m c) b.val k.val = 0 := by
  rw [at2_of_lt (X m c) b.isLt k.isLt]
  show (V m c main_v21 : S4096x9216.Idx → Elt Ideal .bf16) _ = _
  rw [HostArrays.padded_x]
  unfold HostArrays.xPad
  refine (pad_apply_of_not_inside _ _ _ _ _ _ _ (ix2 b k) (1 : Fin 2) (fun h => ?_)).trans ?_
  · have h3 : (k.val - 0) / (0 + 1) < 9000 := h.2.2
    omega
  · show (((0#32 : BitVec 32).toInt : ℝ) : EReal) = 0
    simp

/-- The bias row's entry in column `n` is `bias(n)`. -/
theorem b_at (n : Fin 2048) : at2 (B m c) 0 n.val = argB m c (ix1 n) := by
  rw [at2_of_lt (B m c) Nat.one_pos n.isLt]
  show (V m c main_v22 : S1x2048.Idx → Elt Ideal .f32) _ = _
  rw [HostArrays.bias_row]
  unfold HostArrays.biasRow
  refine (shapeCast_addUnit_apply ![2048] _ _ _).trans ?_
  exact congrArg (argB m c) (funext fun a => match a with | ⟨0, _⟩ => rfl)

/-- Below row 9000 the kernel's scattered matrix is the reference's, when no row index is negative. -/
theorem w_at (hrows : ∀ j, IntOp.cmpi .sge (Cert.Weights.rows (argI m c) j) 0#32 = 1#1) (k : Fin 9000) (n : Fin 2048) :
    at2 (W m c) k.val n.val = Cert.ReferenceIdeal.Read.val_main_v18 (F := Ideal) (argI m c) (argW m c) (ix2 k n) := by
  rw [at2_of_lt (W m c) (show k.val < 9216 by have := k.isLt; omega) n.isLt]
  show (V m c main_v19 : S9216x2048.Idx → Elt Ideal .bf16) _ = _
  rw [HostArrays.scattered_w]
  exact Cert.Weights.w_entry (argI m c) (argW m c) hrows k n

/-- The kernel's result array is the reference's last stage of the same arguments. -/
theorem G_eq (hrows : ∀ j, IntOp.cmpi .sge (Cert.Weights.rows (argI m c) j) 0#32 = 1#1) :
    Final.G m c = Cert.ReferenceIdeal.Read.val_main_v22 (F := Ideal) (argX m c) (argI m c) (argW m c) (argB m c) := by
  funext j
  obtain ⟨b, n, rfl⟩ : ∃ (b : Fin 4096) (n : Fin 2048), j = ix2 b n := ⟨j 0, j 1, eq_ix2 j⟩
  unfold Final.G
  rw [Cert.ReferenceIdeal.Read.val_main_v22_apply, Cert.ReferenceIdeal.Read.val_main_v19_apply,
    Cert.ReferenceIdeal.Read.val_main_v21_apply, Cert.ReferenceIdeal.Read.val_main_v20_apply]
  refine congrArg₂ (fun u v : EReal => u + v) ?_ ?_
  · rw [Cert.BlockSum.sum_fin_drop_tail (show 9000 ≤ 9216 by decide)
      (fun k : Fin 9216 => at2 (X m c) b.val k.val * at2 (W m c) k.val n.val)
      (fun k hk => by show at2 (X m c) b.val k.val * _ = 0; rw [x_out m c b k hk, zero_mul])]
    refine Finset.sum_congr rfl fun k _ => ?_
    show at2 (X m c) b.val k.val * at2 (W m c) k.val n.val = _
    rw [x_in m c b k, w_at m c hrows k n]
    refine congrArg₂ (fun u v : EReal => u * v) (congrArg (argX m c) ?_) (congrArg _ ?_)
    · exact funext fun a => match a with | ⟨0, _⟩ => rfl | ⟨1, _⟩ => rfl
    · exact funext fun a => match a with | ⟨0, _⟩ => rfl | ⟨1, _⟩ => rfl
  · show at2 (B m c) 0 n.val = _
    rw [b_at m c n]
    exact congrArg (argB m c) (funext fun a => match a with | ⟨0, _⟩ => rfl)

end Cert.KernelIdeal.Bridge

end
-- ==== Proof.lean ====
/- The proof of `Cert.Claim`: a sparse layer  x · W + bias,  where W is the dense 9000 × 2048 matrix
   scattered additively from 200000 (row, column, weight) triples.

   The reference computes it directly.  The kernel scatters into 9216 rows, appends 216 zero columns
   to `x`, and runs a blocked product: 8 row blocks of 512 rows, the contracted axis cut into 4 slices
   of 2304, the partial products accumulated in a carried block that starts at zero and receives the
   bias after the last slice.

   At exact arithmetic the two agree entry by entry, under the precondition that every row index is
   non-negative (with it, neither program's wrap of negative indices changes anything, so both scatter
   at the same index array):
     * the four slices' partial sums are one sum over the 9216 padded positions (a regrouping: only
       associativity and commutativity of addition);
     * the 216 padded positions contribute 0 · w = 0, whatever w is;
     * below row 9000 the 9216-row scatter and the 9000-row scatter receive the same updates at every
       entry, because an update's landing entry is read off its index pair alone.
   No distributive law and no cancellation is used, so the finiteness of the float inputs is not.

   Modules: BlockSum, LibSumBlocks (sums); ScatterRows (the scatter across two row counts);
   RowsNonneg (the precondition read back); Pieces, PayEntry, Blocks, Accum, Final (the kernel's result
   array); HostArrays, Weights, Bridge (the kernel's result is the reference's). -/
import proofs.«155076_j3410204033732_2_alg».proof.Defs
import proofs.«155076_j3410204033732_2_alg».proof.Proof.Gen.Kernel
import proofs.«155076_j3410204033732_2_alg».proof.Proof.Gen.Kernel.Skeleton
import proofs.«155076_j3410204033732_2_alg».proof.Proof.Gen.Kernel.Launch
import proofs.«155076_j3410204033732_2_alg».proof.Proof.Gen.Kernel.Points
import proofs.«155076_j3410204033732_2_alg».proof.Proof.Gen.Kernel.Frame
import proofs.«155076_j3410204033732_2_alg».proof.Proof.Gen.KernelIdeal
import proofs.«155076_j3410204033732_2_alg».proof.Proof.Gen.KernelIdeal.Skeleton
import proofs.«155076_j3410204033732_2_alg».proof.Proof.Gen.KernelIdeal.Launch
import proofs.«155076_j3410204033732_2_alg».proof.Proof.Gen.KernelIdeal.Points
import proofs.«155076_j3410204033732_2_alg».proof.Proof.Gen.KernelIdeal.Frame
import proofs.«155076_j3410204033732_2_alg».proof.Proof.Gen.ReferenceIdeal
import proofs.«155076_j3410204033732_2_alg».proof.Proof.Gen.Pre_finite_inputs
import proofs.«155076_j3410204033732_2_alg».proof.Proof.Gen.KernelIdeal.Value
import proofs.«155076_j3410204033732_2_alg».proof.Proof.Gen.ReferenceIdeal.Run
import proofs.«155076_j3410204033732_2_alg».proof.Proof.Gen.ReferenceIdeal.Read
import proofs.«155076_j3410204033732_2_alg».proof.Proof.Final
import proofs.«155076_j3410204033732_2_alg».proof.Proof.Bridge
import proofs.«155076_j3410204033732_2_alg».proof.Proof.RowsNonneg
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel := fun m ρ _ => Cert.Kernel.Gen.frame m ρ

/-- So does the kernel read at exact arithmetic. -/
theorem frame_ki : Cert.frame_KernelIdeal := fun m ρ _ => Cert.KernelIdeal.Gen.frame m ρ

/-- The reference runs and leaves its arguments unchanged: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the same result array: the kernel's is `Final.G`, which under the
    precondition is the reference's last stage of the same arguments (`Bridge.G_eq`). -/
theorem algebraic : Cert.algebraic_KernelIdeal_ReferenceIdeal := by
  intro m ρ m' ρ' hpre hagree
  refine ⟨fun c => Cert.KernelIdeal.Final.G m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, (hagree c).1, (hagree c).2.1, (hagree c).2.2.1, (hagree c).2.2.2]
  exact (Cert.KernelIdeal.Bridge.G_eq m c fun j => Cert.RowsNonneg.rows_nonneg _ _ _ _ (hpre c) j).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
